-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S384x1024 : Shape := ⟨2, ![384, 1024]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S384x1024 : S_.BroadcastsInDim S384x1024 (![] : Fin 0 → Fin S384x1024.rank)
  reducesTo_S384x1024_S_d0_1 : S384x1024.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S384 .f32) (main_arg5 : FVec F S1x128 .f32) (main_arg6 : FVec F S1 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S32x2048x1024 .f32) (main_arg1 : FVec F S384x1024 .f32) (main_arg2 : FVec F S384x128 .f32) (main_arg3 : FVec F S384 .f32) (main_arg4 : FVec F S384 .f32) (main_arg5 : FVec F S1x128 .f32) (main_arg6 : FVec F S1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S384x1024 .f32 := Host.absf main_arg1
  let main_cst_0 : FVec F S_ .f32 := constant S_ .f32 0x7F800000#32
  let main_v5 : FVec F S384x1024 .f32 := broadcastInDim S384x1024 ![] bcast_S_S384x1024 main_cst_0
  let main_v6 : IVec S384x1024 1 := cmpf .olt main_v4 main_v5
  let main_c_1 : IVec S_ 1 := constantI S_ 1 1#1
  let main_v7 : IVec S_ 1 := (fun x v => Host.reduce IntOp.andi x v reducesTo_S384x1024_S_d0_1 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_v13 main_v16
-- ==== Kernel.lean ====
abbrev S32x2048x1024 : Shape := ⟨3, ![32, 2048, 1024]⟩
abbrev S384x1024 : Shape := ⟨2, ![384, 1024]⟩
abbrev S384x128 : Shape := ⟨2, ![384, 128]⟩
abbrev S384 : Shape := ⟨1, ![384]⟩
abbrev S1x128 : Shape := ⟨2, ![1, 128]⟩
abbrev S1 : Shape := ⟨1, ![1]⟩
abbrev S65536x1024 : Shape := ⟨2, ![65536, 1024]⟩
abbrev S1024x384 : Shape := ⟨2, ![1024, 384]⟩
abbrev S1x384 : Shape := ⟨2, ![1, 384]⟩
abbrev S128 : Shape := ⟨1, ![128]⟩
abbrev S1x1 : Shape := ⟨2, ![1, 1]⟩
abbrev S512x128 : Shape := ⟨2, ![512, 128]⟩
abbrev S4096x1024 : Shape := ⟨2, ![4096, 1024]⟩
abbrev S32x128 : Shape := ⟨2, ![32, 128]⟩
abbrev S4096x384 : Shape := ⟨2, ![4096, 384]⟩
abbrev S4096x128 : Shape := ⟨2, ![4096, 128]⟩
abbrev S4096 : Shape := ⟨1, ![4096]⟩
abbrev S4096x1 : Shape := ⟨2, ![4096, 1]⟩
abbrev S32x2048 : Shape := ⟨2, ![32, 2048]⟩

abbrev nBuf : Space → Nat
  | .hbm => 20
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S384x1024, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S1x128, .f32⟩
  | .hbm, ⟨6, _⟩ => ⟨S1, .f32⟩
  | .hbm, ⟨7, _⟩ => ⟨S65536x1024, .f32⟩
  | .hbm, ⟨8, _⟩ => ⟨S1024x384, .f32⟩
  | .hbm, ⟨9, _⟩ => ⟨S1024x384, .bf16⟩
  | .hbm, ⟨10, _⟩ => ⟨S1x384, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S1x1, .f32⟩
  | .hbm, ⟨18, _⟩ => ⟨S512x128, .f32⟩
  | .hbm, ⟨19, _⟩ => ⟨S32x2048, .f32⟩
  | .local _ .vmem, ⟨0, _⟩ => ⟨S4096x1024, .f32⟩
  | .local _ .vmem, ⟨1, _⟩ => ⟨S4096x1024, .f32⟩
  | .local _ .vmem, ⟨2, _⟩ => ⟨S1024x384, .bf16⟩
  | .local _ .vmem, ⟨3, _⟩ => ⟨S1x384, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S32x128, .f32⟩
  | .local _ .vmem, ⟨10, _⟩ => ⟨S32x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S32x2048x1024_S65536x1024 : S32x2048x1024.ShapeCasts S65536x1024
  transposes_S384x1024_S1024x384_1_0 : S384x1024.Transposes [1, 0] S1024x384
  bitsLt_bf16_f32 : FTy.bits .bf16 < FTy.bits .f32
  shapeCasts_S384_S1x384 : S384.ShapeCasts S1x384
  slices_S384_S128_0 : S384.Slices ![0] S128
  shapeCasts_S128_S1x128 : S128.ShapeCasts S1x128
  slices_S384_S128_128 : S384.Slices ![128] S128
  slices_S384_S128_256 : S384.Slices ![256] S128
  shapeCasts_S1_S1x1 : S1.ShapeCasts S1x1
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S32x128 : S4096x1.ShapeCasts S32x128
  inb_S32x128_S32x128_0_0 : ∀ a, (![0, 0] : Fin 2 → Nat) a + S32x128.size a ≤ S32x128.size a
  h_S32x128 : 0 < S32x128.numel
  shapeCasts_S512x128_S32x2048 : S512x128.ShapeCasts S32x2048
  dot_S4096x1024_S1024x384_S4096x384_1_0_0_1_n_n_wf : DotDims.WF S4096x1024 S1024x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S65536x1024.size a
  hwx0_0 : ∀ i : grid0.Coords, EltTy.bits .f32 = 32 ∨ (Rect.block (s := S65536x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .bf16 = 32 ∨ (Rect.block (s := S1024x384) S1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S512x128.size a
  hwx0_8 : ∀ i : grid0.Coords, EltTy.bits .f32 = 32 ∨ (Rect.block (s := S512x128) S32x128.size (cc0_transform_8 i) (hinb0_8 i)).WholeWords (EltTy.packing .f32)

variable [Facts₀]

def dot_S4096x1024_S1024x384_S4096x384_1_0_0_1_n_n : DotDims S4096x1024 S1024x384 S4096x384 where
  lhsContracting := [1]
  rhsContracting := [0]
  lhsNonContracting := [0]
  rhsNonContracting := [1]
  lhsBatch := []
  rhsBatch := []
  wf := dot_S4096x1024_S1024x384_S4096x384_1_0_0_1_n_n_wf

abbrev win0_0 : Pipeline.Window sig grid0 :=
  Pipeline.Window.ofSpec (Memref.whole main_v0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S32x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S384x1024 : Shape := ⟨2, ![384, 1024]⟩
abbrev S384x128 : Shape := ⟨2, ![384, 128]⟩
abbrev S384 : Shape := ⟨1, ![384]⟩
abbrev S1x128 : Shape := ⟨2, ![1, 128]⟩
abbrev S1 : Shape := ⟨1, ![1]⟩
abbrev S32x2048x384 : Shape := ⟨3, ![32, 2048, 384]⟩
abbrev S1x1x384 : Shape := ⟨3, ![1, 1, 384]⟩
abbrev S32x2048x128 : Shape := ⟨3, ![32, 2048, 128]⟩
abbrev S128 : Shape := ⟨1, ![128]⟩
abbrev S1x1x128 : Shape := ⟨3, ![1, 1, 128]⟩
abbrev S_ : Shape := ⟨0, ![]⟩
abbrev S32x2048x1 : Shape := ⟨3, ![32, 2048, 1]⟩
abbrev S1x1x1 : Shape := ⟨3, ![1, 1, 1]⟩
abbrev S32x2048 : Shape := ⟨2, ![32, 2048]⟩

abbrev nBuf : Space → Nat
  | .hbm => 53
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S384x1024, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S1x128, .f32⟩
  | .hbm, ⟨6, _⟩ => ⟨S1, .f32⟩
  | .hbm, ⟨7, _⟩ => ⟨S32x2048x384, .f32⟩
  | .hbm, ⟨8, _⟩ => ⟨S1x1x384, .f32⟩
  | .hbm, ⟨9, _⟩ => ⟨S32x2048x384, .f32⟩
  | .hbm, ⟨10, _⟩ => ⟨S32x2048x384, .f32⟩
  | .hbm, ⟨11, _⟩ => ⟨S32x2048x128, .f32⟩
  | .hbm, ⟨12, _⟩ => ⟨S32x2048x128, .f32⟩
  | .hbm, ⟨13, _⟩ => ⟨S32x2048x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x1x128, .f32⟩
  | .hbm, ⟨18, _⟩ => ⟨S32x2048x128, .f32⟩
  | .hbm, ⟨19, _⟩ => ⟨S32x2048x128, .f32⟩
  | .hbm, ⟨20, _⟩ => ⟨S32x2048x128, .f32⟩
  | .hbm, ⟨21, _⟩ => ⟨S32x2048x128, .f32⟩
  | .hbm, ⟨22, _⟩ => ⟨S_, .f32⟩
  | .hbm, ⟨23, _⟩ => ⟨S32x2048x128, .f32⟩
  | .hbm, ⟨24, _⟩ => ⟨S32x2048x128, .f32⟩
  | .hbm, ⟨25, _⟩ => ⟨S_, .f32⟩
  | .hbm, ⟨26, _⟩ => ⟨S32x2048x128, .f32⟩
  | .hbm, ⟨27, _⟩ => ⟨S32x2048x128, .f32⟩
  | .hbm, ⟨28, _⟩ => ⟨S1x1x128, .f32⟩
  | .hbm, ⟨29, _⟩ => ⟨S32x2048x128, .f32⟩
  | .hbm, ⟨30, _⟩ => ⟨S32x2048x128, .f32⟩
  | .hbm, ⟨31, _⟩ => ⟨S32x2048x128, .f32⟩
  | .hbm, ⟨32, _⟩ => ⟨S32x2048x128, .f32⟩
  | .hbm, ⟨33, _⟩ => ⟨S_, .f32⟩
  | .hbm, ⟨34, _⟩ => ⟨S32x2048x128, .f32⟩
  | .hbm, ⟨35, _⟩ => ⟨S32x2048x128, .f32⟩
  | .hbm, ⟨36, _⟩ => ⟨S_, .f32⟩
  | .hbm, ⟨37, _⟩ => ⟨S32x2048x128, .f32⟩
  | .hbm, ⟨38, _⟩ => ⟨S32x2048x128, .f32⟩
  | .hbm, ⟨39, _⟩ => ⟨S1x1x128, .f32⟩
  | .hbm, ⟨40, _⟩ => ⟨S32x2048x128, .f32⟩
  | .hbm, ⟨41, _⟩ => ⟨S32x2048x128, .f32⟩
  | .hbm, ⟨42, _⟩ => ⟨S32x2048x128, .f32⟩
  | .hbm, ⟨43, _⟩ => ⟨S32x2048x128, .f32⟩
  | .hbm, ⟨44, _⟩ => ⟨S_, .f32⟩
  | .hbm, ⟨45, _⟩ => ⟨S32x2048x128, .f32⟩
  | .hbm, ⟨46, _⟩ => ⟨S32x2048x128, .f32⟩
  | .hbm, ⟨47, _⟩ => ⟨S32x2048x128, .f32⟩
  | .hbm, ⟨48, _⟩ => ⟨S32x2048x1, .f32⟩
  | .hbm, ⟨49, _⟩ => ⟨S1x1x1, .f32⟩
  | .hbm, ⟨50, _⟩ => ⟨S32x2048x1, .f32⟩
  | .hbm, ⟨51, _⟩ => ⟨S32x2048x1, .f32⟩
  | .hbm, ⟨52, _⟩ => ⟨S32x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S384_S1x1x384_2 : S384.BroadcastsInDim S1x1x384 (![2] : Fin 1 → Fin S1x1x384.rank)
  bcast_S1x1x384_S32x2048x384_0_1_2 : S1x1x384.BroadcastsInDim S32x2048x384 (![0, 1, 2] : Fin 3 → Fin S32x2048x384.rank)
  slices_S32x2048x384_S32x2048x128_0_0_0 : S32x2048x384.Slices ![0, 0, 0] S32x2048x128
  slices_S32x2048x384_S32x2048x128_0_0_128 : S32x2048x384.Slices ![0, 0, 128] S32x2048x128
  slices_S32x2048x384_S32x2048x128_0_0_256 : S32x2048x384.Slices ![0, 0, 256] S32x2048x128
  slices_S384_S128_0 : S384.Slices ![0] S128
  slices_S384_S128_128 : S384.Slices ![128] S128
  slices_S384_S128_256 : S384.Slices ![256] S128
  bcast_S128_S1x1x128_2 : S128.BroadcastsInDim S1x1x128 (![2] : Fin 1 → Fin S1x1x128.rank)
  bcast_S1x1x128_S32x2048x128_0_1_2 : S1x1x128.BroadcastsInDim S32x2048x128 (![0, 1, 2] : Fin 3 → Fin S32x2048x128.rank)
  bcast_S_S32x2048x128 : S_.BroadcastsInDim S32x2048x128 (![] : Fin 0 → Fin S32x2048x128.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  shapeCasts_S32x2048x1_S32x2048 : S32x2048x1.ShapeCasts S32x2048
  dot_S32x2048x1024_S384x1024_S32x2048x384_2_1_01_0_n_n_wf : DotDims.WF S32x2048x1024 S384x1024 S32x2048x384 [2] [1] [0, 1] [0] [] []
  dot_S32x2048x128_S1x128_S32x2048x1_2_1_01_0_n_n_wf : DotDims.WF S32x2048x128 S1x128 S32x2048x1 [2] [1] [0, 1] [0] [] []

variable [Facts₀]

def dot_S32x2048x1024_S384x1024_S32x2048x384_2_1_01_0_n_n : DotDims S32x2048x1024 S384x1024 S32x2048x384 where
  lhsContracting := [2]
  rhsContracting := [1]
  lhsNonContracting := [0, 1]
  rhsNonContracting := [0]
  lhsBatch := []
  rhsBatch := []
  wf := dot_S32x2048x1024_S384x1024_S32x2048x384_2_1_01_0_n_n_wf
def dot_S32x2048x128_S1x128_S32x2048x1_2_1_01_0_n_n : DotDims S32x2048x128 S1x128 S32x2048x1 where
  lhsContracting := [2]
  rhsContracting := [1]
  lhsNonContracting := [0, 1]
  rhsNonContracting := [0]
  lhsBatch := []
  rhsBatch := []
  wf := dot_S32x2048x128_S1x128_S32x2048x1_2_1_01_0_n_n_wf

class Facts : Prop extends Facts₀ where

variable [Facts]
-- ==== Proof.GruSpec.lean ====
/-
  The function both programs compute: a GRU cell run against a zero hidden state, followed by a linear read-out.

  For one input row `xr` (1024 entries), the three gate pre-activations are the 384 inner products of the row with
  the rows of the input weight, plus the input bias: entries 0..127 feed the reset gate, 128..255 the update gate and
  256..383 the candidate.  With a zero hidden state the recurrent weight never contributes; only the recurrent bias
  does, one 128-entry third per gate.  So, for lane `g`,

      r g = σ (a (lo g) + br g),   z g = σ (a (mid g) + bz g),   n g = tanh (a (hi g) + r g * bn g),
      h g = (1 - z g) * n g,

  and the output of the row is `(∑ g, h g * lw g) + lb`.  Here `σ` is the logistic function `1 / (1 + e⁻ᵘ)` on the
  extended reals.  Everything is stated on the extended reals: no step below needs an entry to be finite.
-/
import Idealize.ShloMosaic.PureOps.Ideal
import Idealize.ShloMosaic.PureOps.IdealRules
import Idealize.ShloMosaic.Lib.ValueIdx

noncomputable section

namespace Cert.GruSpec

open Idealize.ShloMosaic Idealize.ShloMosaic.ValueIdx

/-- Lane `g` of the reset gate's third of the 384 pre-activations. -/
def lo (g : Fin 128) : Fin 384 := ⟨g.val, by have := g.isLt; omega⟩
/-- Lane `g` of the update gate's third. -/
def mid (g : Fin 128) : Fin 384 := ⟨128 + g.val, by have := g.isLt; omega⟩
/-- Lane `g` of the candidate's third. -/
def hi (g : Fin 128) : Fin 384 := ⟨256 + g.val, by have := g.isLt; omega⟩

/-- Pre-activation `j` of a row: its inner product with row `j` of the input weight, plus the input bias. -/
def pre (xr : Fin 1024 → EReal) (w : Fin 384 → Fin 1024 → EReal) (bi : Fin 384 → EReal) (j : Fin 384) : EReal :=
  (∑ h : Fin 1024, xr h * w j h) + bi j

/-- Lane `g` of the new hidden state from the pre-activations `a` and the three thirds of the recurrent bias. -/
def hidden (a : Fin 384 → EReal) (br bz bn : Fin 128 → EReal) (g : Fin 128) : EReal :=
  (1 - Ideal.logistic (a (mid g) + bz g)) * Ideal.tanh (a (hi g) + Ideal.logistic (a (lo g) + br g) * bn g)

/-- The read-out of a row: the hidden state against the output weight, plus the output bias. -/
def rowOut (a : Fin 384 → EReal) (br bz bn lw : Fin 128 → EReal) (lb : EReal) : EReal :=
  (∑ g : Fin 128, hidden a br bz bn g * lw g) + lb

/-- The whole result: entry `(b, l)` is the read-out of row `(b, l, ·)` of the input. -/
def G (x : (⟨3, ![32, 2048, 1024]⟩ : Shape).Idx → EReal) (w : (⟨2, ![384, 1024]⟩ : Shape).Idx → EReal)
    (bi bh : (⟨1, ![384]⟩ : Shape).Idx → EReal) (lw : (⟨2, ![1, 128]⟩ : Shape).Idx → EReal)
    (lb : (⟨1, ![1]⟩ : Shape).Idx → EReal) : (⟨2, ![32, 2048]⟩ : Shape).Idx → EReal := fun i =>
  rowOut (pre (fun h => x (ix3 (i 0) (i 1) h)) (fun j h => w (ix2 j h)) (fun j => bi (ix1 j)))
    (fun g => bh (ix1 (lo g))) (fun g => bh (ix1 (mid g))) (fun g => bh (ix1 (hi g)))
    (fun g => lw (ix2 0 g)) (lb (ix1 0))

/-- Row `n` of the input flattened to 65536 rows: row `(n / 2048, n % 2048)` of the `32 × 2048` leading axes. -/
def rowOf (x : (⟨3, ![32, 2048, 1024]⟩ : Shape).Idx → EReal) (n : Fin 65536) : Fin 1024 → EReal := fun h =>
  x (ix3 (⟨n.val / 2048, by have := n.isLt; omega⟩ : Fin 32) (⟨n.val % 2048, by omega⟩ : Fin 2048) h)

/-- The read-out of flattened row `n`. -/
def outRow (x : (⟨3, ![32, 2048, 1024]⟩ : Shape).Idx → EReal) (w : (⟨2, ![384, 1024]⟩ : Shape).Idx → EReal)
    (bi bh : (⟨1, ![384]⟩ : Shape).Idx → EReal) (lw : (⟨2, ![1, 128]⟩ : Shape).Idx → EReal)
    (lb : (⟨1, ![1]⟩ : Shape).Idx → EReal) (n : Fin 65536) : EReal :=
  rowOut (pre (rowOf x n) (fun j h => w (ix2 j h)) (fun j => bi (ix1 j)))
    (fun g => bh (ix1 (lo g))) (fun g => bh (ix1 (mid g))) (fun g => bh (ix1 (hi g)))
    (fun g => lw (ix2 0 g)) (lb (ix1 0))

/-- Entry `(b, l)` of the result is the read-out of flattened row `2048 b + l`. -/
theorem G_eq_outRow (x : (⟨3, ![32, 2048, 1024]⟩ : Shape).Idx → EReal) (w : (⟨2, ![384, 1024]⟩ : Shape).Idx → EReal)
    (bi bh : (⟨1, ![384]⟩ : Shape).Idx → EReal) (lw : (⟨2, ![1, 128]⟩ : Shape).Idx → EReal)
    (lb : (⟨1, ![1]⟩ : Shape).Idx → EReal) (b : Fin 32) (l : Fin 2048) :
    G x w bi bh lw lb (ix2 b l)
      = outRow x w bi bh lw lb ⟨b.val * 2048 + l.val, by have := b.isLt; have := l.isLt; omega⟩ := by
  have hb : b.val < 32 := b.isLt
  have hl : l.val < 2048 := l.isLt
  have e : rowOf x ⟨b.val * 2048 + l.val, by omega⟩ = fun h => x (ix3 b l h) := by
    funext h
    unfold rowOf
    have e0 : (⟨(b.val * 2048 + l.val) / 2048, by omega⟩ : Fin 32) = b := Fin.ext (by show (b.val * 2048 + l.val) / 2048 = b.val; omega)
    have e1 : (⟨(b.val * 2048 + l.val) % 2048, by omega⟩ : Fin 2048) = l := Fin.ext (by show (b.val * 2048 + l.val) % 2048 = l.val; omega)
    rw [e0, e1]
  unfold G outRow
  rw [e]

/-- The binary32 pattern of `1.0` denotes the extended real `1`. -/
theorem one_f32 : Ideal.ofBits .f32 0x3F800000#32 = 1 := IdealRules.sign_bit.ideal_onePat .f32

/-- The logistic function written out with the pattern of `1.0` for its two ones: a quotient of `1` by `1 + e⁻ᵘ`. -/
theorem logistic_spelt (u : EReal) :
    Ideal.div (Ideal.ofBits .f32 0x3F800000#32) (Ideal.ofBits .f32 0x3F800000#32 + Ideal.exp (-u)) = Ideal.logistic u := by
  rw [one_f32]; rfl

end Cert.GruSpec

end
-- ==== Proof.RefSide.lean ====
/-
  The reference program computes the specification.

  The reference's stages are read at an index in the order of the mathematics: the 384 pre-activations of a row
  `(b, l)` (an inner product over the 1024 input features plus the input bias), their three 128-wide thirds, the two
  logistic gates (which the reference spells as `1 / (1 + e⁻ᵘ)`), the candidate, the new hidden state, and the read-out
  (an inner product over the 128 lanes plus the output bias).  Each stage is one lemma; the last one puts them together.
-/
import proofs.«170873_j12790412607633_2_alg».proof.Proof.Gen.ReferenceIdeal.Read
import proofs.«170873_j12790412607633_2_alg».proof.Proof.GruSpec

noncomputable section

namespace Cert.RefSide

open Cert.ReferenceIdeal Cert.ReferenceIdeal.Read Cert.GruSpec Idealize.ShloMosaic Idealize.ShloMosaic.ValueIdx

variable (x0 : (⟨S32x2048x1024, .f32⟩ : BufTy).Contents (Elt Ideal)) (x1 : (⟨S384x1024, .f32⟩ : BufTy).Contents (Elt Ideal))
  (x3 x4 : (⟨S384, .f32⟩ : BufTy).Contents (Elt Ideal)) (x5 : (⟨S1x128, .f32⟩ : BufTy).Contents (Elt Ideal))
  (x6 : (⟨S1, .f32⟩ : BufTy).Contents (Elt Ideal))

/-- The 384 pre-activations of row `(b, l)` of the input. -/
abbrev acts (b : Fin 32) (l : Fin 2048) : Fin 384 → EReal :=
  pre (fun h => x0 (ix3 b l h)) (fun j h => x1 (ix2 j h)) (fun j => x3 (ix1 j))

/-- The projection plus the input bias, at `(b, l, j)`, is pre-activation `j` of the row. -/
theorem preact (b : Fin 32) (l : Fin 2048) (j : Fin 384) :
    val_main_v3 (F := Ideal) x0 x1 x3 (ix3 b l j) = acts x0 x1 x3 b l j := by
  rw [val_main_v3_apply, val_main_v0_apply, val_main_v2_apply, val_main_v1_apply]
  have el : ∀ k, lidx_main_v0 (ix3 b l j) k = ix3 b l k := fun k => funext fun a => Fin.ext (by
    match a with
    | ⟨0, _⟩ => rfl
    | ⟨1, _⟩ => rfl
    | ⟨2, _⟩ => rfl)
  have er : ∀ k, ridx_main_v0 (ix3 b l j) k = ix2 j k := fun k => funext fun a => Fin.ext (by
    match a with
    | ⟨0, _⟩ => rfl
    | ⟨1, _⟩ => rfl)
  have eb : idx_main_v1 (idx_main_v2 (ix3 b l j)) = ix1 j := funext fun a => Fin.ext (by
    match a with
    | ⟨0, _⟩ => rfl)
  simp only [el, er, eb]
  rfl

/-- The first third of the pre-activations. -/
theorem act_lo (b : Fin 32) (l : Fin 2048) (g : Fin 128) :
    val_main_v4 (F := Ideal) x0 x1 x3 (ix3 b l g) = acts x0 x1 x3 b l (lo g) := by
  rw [val_main_v4_apply]
  have e : idx_main_v4 (ix3 b l g) = ix3 b l (lo g) := funext fun a => Fin.ext (by
    match a with
    | ⟨0, _⟩ => rfl
    | ⟨1, _⟩ => rfl
    | ⟨2, _⟩ => rfl)
  rw [e]
  exact preact x0 x1 x3 b l (lo g)

/-- The second third. -/
theorem act_mid (b : Fin 32) (l : Fin 2048) (g : Fin 128) :
    val_main_v5 (F := Ideal) x0 x1 x3 (ix3 b l g) = acts x0 x1 x3 b l (mid g) := by
  rw [val_main_v5_apply]
  have e : idx_main_v5 (ix3 b l g) = ix3 b l (mid g) := funext fun a => Fin.ext (by
    match a with
    | ⟨0, _⟩ => rfl
    | ⟨1, _⟩ => rfl
    | ⟨2, _⟩ => rfl)
  rw [e]
  exact preact x0 x1 x3 b l (mid g)

/-- The last third. -/
theorem act_hi (b : Fin 32) (l : Fin 2048) (g : Fin 128) :
    val_main_v6 (F := Ideal) x0 x1 x3 (ix3 b l g) = acts x0 x1 x3 b l (hi g) := by
  rw [val_main_v6_apply]
  have e : idx_main_v6 (ix3 b l g) = ix3 b l (hi g) := funext fun a => Fin.ext (by
    match a with
    | ⟨0, _⟩ => rfl
    | ⟨1, _⟩ => rfl
    | ⟨2, _⟩ => rfl)
  rw [e]
  exact preact x0 x1 x3 b l (hi g)

/-- The recurrent bias's first third, spread over the rows, at `(b, l, g)`. -/
theorem bias_lo (b : Fin 32) (l : Fin 2048) (g : Fin 128) :
    val_main_v11 (F := Ideal) x4 (ix3 b l g) = x4 (ix1 (lo g)) := by
  rw [val_main_v11_apply, val_main_v10_apply, val_main_v7_apply]
  exact congrArg x4 (funext fun a => Fin.ext (by
    match a with
    | ⟨0, _⟩ => rfl))

/-- Its second third. -/
theorem bias_mid (b : Fin 32) (l : Fin 2048) (g : Fin 128) :
    val_main_v20 (F := Ideal) x4 (ix3 b l g) = x4 (ix1 (mid g)) := by
  rw [val_main_v20_apply, val_main_v19_apply, val_main_v8_apply]
  exact congrArg x4 (funext fun a => Fin.ext (by
    match a with
    | ⟨0, _⟩ => rfl))

/-- Its last third. -/
theorem bias_hi (b : Fin 32) (l : Fin 2048) (g : Fin 128) :
    val_main_v29 (F := Ideal) x4 (ix3 b l g) = x4 (ix1 (hi g)) := by
  rw [val_main_v29_apply, val_main_v28_apply, val_main_v9_apply]
  exact congrArg x4 (funext fun a => Fin.ext (by
    match a with
    | ⟨0, _⟩ => rfl))

/-- The reset gate: the reference's quotient `1 / (1 + e⁻ᵘ)` is the logistic function of `u`. -/
theorem reset_gate (b : Fin 32) (l : Fin 2048) (g : Fin 128) :
    val_main_v18 (F := Ideal) x0 x1 x3 x4 (ix3 b l g)
      = Ideal.logistic (acts x0 x1 x3 b l (lo g) + x4 (ix1 (lo g))) := by
  rw [val_main_v18_apply, val_main_v16_apply, val_main_v14_apply, val_main_v13_apply, val_main_v12_apply,
    val_main_v17_apply, val_main_cst_0_apply, val_main_v15_apply, val_main_cst_apply, act_lo, bias_lo]
  exact logistic_spelt _

/-- The update gate, likewise. -/
theorem update_gate (b : Fin 32) (l : Fin 2048) (g : Fin 128) :
    val_main_v27 (F := Ideal) x0 x1 x3 x4 (ix3 b l g)
      = Ideal.logistic (acts x0 x1 x3 b l (mid g) + x4 (ix1 (mid g))) := by
  rw [val_main_v27_apply, val_main_v25_apply, val_main_v23_apply, val_main_v22_apply, val_main_v21_apply,
    val_main_v26_apply, val_main_cst_2_apply, val_main_v24_apply, val_main_cst_1_apply, act_mid, bias_mid]
  exact logistic_spelt _

/-- The new hidden state at lane `g` of row `(b, l)`. -/
theorem hidden_state (b : Fin 32) (l : Fin 2048) (g : Fin 128) :
    val_main_v35 (F := Ideal) x0 x1 x3 x4 (ix3 b l g)
      = hidden (acts x0 x1 x3 b l) (fun g => x4 (ix1 (lo g))) (fun g => x4 (ix1 (mid g))) (fun g => x4 (ix1 (hi g))) g := by
  rw [val_main_v35_apply, val_main_v34_apply, val_main_v33_apply, val_main_cst_3_apply, update_gate,
    val_main_v32_apply, val_main_v31_apply, val_main_v30_apply, reset_gate, act_hi, bias_hi]
  show (Ideal.ofBits .f32 0x3F800000#32 - _) * _ = _
  rw [one_f32]
  rfl

/-- The reference's result is the specification of its six arguments that matter. -/
theorem result_eq : val_main_v40 (F := Ideal) x0 x1 x3 x4 x5 x6 = G x0 x1 x3 x4 x5 x6 := by
  funext i
  obtain ⟨b, l, rfl⟩ : ∃ (b : Fin 32) (l : Fin 2048), i = ix2 b l := ⟨i 0, i 1, eq_ix2 i⟩
  have e40 : idx_main_v40 (ix2 b l) = ix3 b l (0 : Fin 1) := funext fun a => Fin.ext (by
    have hb : b.val < 32 := b.isLt
    have hl : l.val < 2048 := l.isLt
    match a with
    | ⟨0, _⟩ => show (b.val * 2048 + l.val) / 2048 = b.val; omega
    | ⟨1, _⟩ => show (b.val * 2048 + l.val) / 1 % 2048 = l.val; omega
    | ⟨2, _⟩ => rfl)
  rw [val_main_v40_apply, e40, val_main_v39_apply, val_main_v36_apply, val_main_v38_apply, val_main_v37_apply]
  have el : ∀ k, lidx_main_v36 (ix3 b l (0 : Fin 1)) k = ix3 b l k := fun k => funext fun a => Fin.ext (by
    match a with
    | ⟨0, _⟩ => rfl
    | ⟨1, _⟩ => rfl
    | ⟨2, _⟩ => rfl)
  have er : ∀ k, ridx_main_v36 (ix3 b l (0 : Fin 1)) k = ix2 (0 : Fin 1) k := fun k => funext fun a => Fin.ext (by
    match a with
    | ⟨0, _⟩ => rfl
    | ⟨1, _⟩ => rfl)
  have eb : idx_main_v37 (idx_main_v38 (ix3 b l (0 : Fin 1))) = ix1 (0 : Fin 1) := funext fun a => Fin.ext (by
    match a with
    | ⟨0, _⟩ => rfl)
  simp only [el, er, eb, hidden_state]
  rfl

end Cert.RefSide

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.KernelRow.lean ====
/-
  The kernel body computes the specification's read-out, row by row of its block.

  The body loads a block of 4096 input rows, the transposed input weight, the input bias as a row, the three thirds
  of the recurrent bias as rows, the output weight as a row and the output bias as a `1 × 1` array, and stores a
  `32 × 128` block.  Entry `(p, q)` of that block is the read-out of block row `128 p + q`:

    * the matrix product into the zero accumulator is, at `(r, j)`, the inner product of row `r` with column `j`
      of the transposed weight; adding the broadcast bias row gives pre-activation `j` of row `r`;
    * the three column slices at offsets 0, 128, 256 are the thirds of the pre-activations;
    * the sum over the 128 lanes of the hidden state times the output weight, kept as a `4096 × 1` column and
      re-laid as `32 × 128`, is read at `(p, q)` at row `128 p + q`.
-/
import proofs.«170873_j12790412607633_2_alg».proof.Proof.Gen.KernelIdeal.Skeleton
import proofs.«170873_j12790412607633_2_alg».proof.Proof.GruSpec
import proofs.«170873_j12790412607633_2_alg».proof.Proof.LibPlainDot
import proofs.«170873_j12790412607633_2_alg».proof.Proof.LibRowReduce
import Idealize.ShloMosaic.Lib.ValueLayout
import Idealize.ShloMosaic.Lib.Pipeline.Value

noncomputable section

namespace Cert.KernelSide

open Cert.KernelIdeal Cert.KernelIdeal.Gen Cert.GruSpec Idealize.ShloMosaic Idealize.ShloMosaic.ValueIdx

variable (x0 : Vec Ideal S4096x1024 .f32) (x1 : Vec Ideal S1024x384 .bf16) (x2 : Vec Ideal S1x384 .f32)
  (x3 x4 x5 x6 : Vec Ideal S1x128 .f32) (x7 : Vec Ideal S1x1 .f32)

/-- The 384 pre-activations of row `r` of the block: the row against the columns of the transposed weight. -/
abbrev blockActs (r : Fin 4096) : Fin 384 → EReal :=
  pre (fun h => x0 (ix2 r h)) (fun j h => x1 (ix2 h j)) (fun j => x2 (ix2 (0 : Fin 1) j))

/-- The read-out of row `r` of the block. -/
abbrev blockOut (r : Fin 4096) : EReal :=
  rowOut (blockActs x0 x1 x2 r) (fun g => x3 (ix2 (0 : Fin 1) g)) (fun g => x4 (ix2 (0 : Fin 1) g))
    (fun g => x5 (ix2 (0 : Fin 1) g)) (fun g => x6 (ix2 (0 : Fin 1) g)) (x7 (ix2 (0 : Fin 1) (0 : Fin 1)))

/-- The body's product has the dimension numbers of a plain `4096 × 1024` by `1024 × 384` product. -/
theorem dims_plain : dot_S4096x1024_S1024x384_S4096x384_1_0_0_1_n_n = DotDims.plain 4096 1024 384 := rfl

/-- The projection plus the bias row, at `(r, j)`, is pre-activation `j` of row `r`. -/
theorem preact (h0 : S4096x1024.ShapeCasts S4096x1024) (hb : FTy.bits .bf16 < FTy.bits .f32)
    (h1 : S1024x384.ShapeCasts S1024x384) (h2 : S1x384.ShapeCasts S1x384) (hbc : S1x384.Broadcasts S4096x384)
    (r : Fin 4096) (j : Fin 384) :
    addf (F := Ideal) (φ := .f32) (matmul (F := Ideal) (φ₁ := .bf16) (φ₂ := .bf16) dot_S4096x1024_S1024x384_S4096x384_1_0_0_1_n_n none
        (truncf (F := Ideal) (φ := .f32) .bf16 (shapeCast S4096x1024 x0 h0) hb)
        (shapeCast S1024x384 x1 h1) (constant (F := Ideal) S4096x384 .f32 0x00000000#32))
      (broadcastTo S4096x384 (shapeCast S1x384 x2 h2) hbc) (ix2 r j) = blockActs x0 x1 x2 r j := by
  rw [shapeCast_self, shapeCast_self, shapeCast_self]
  refine (congrArg₂ (fun a b : EReal => a + b)
    (PlainDot.matmul_zero_apply (φ₁ := .bf16) (φ₂ := .bf16) _ dims_plain none (truncf (F := Ideal) (φ := .f32) .bf16 x0 hb) x1 r j)
    (broadcastTo_1b_ab_apply x2 hbc r j)).trans ?_
  rfl

/-- The first third of a `4096 × 384` array of pre-activations, at `(r, g)`. -/
theorem third_lo (v : FVec Ideal S4096x384 .f32) (h : S4096x384.Slices ![0, 0] S4096x128) (r : Fin 4096) (g : Fin 128) :
    extractStridedSlice S4096x128 ![0, 0] v h (ix2 r g) = v (ix2 r (lo g)) :=
  slice2_axis1_apply 0 v h r g (lo g) (Nat.zero_add _).symm

/-- The second third. -/
theorem third_mid (v : FVec Ideal S4096x384 .f32) (h : S4096x384.Slices ![0, 128] S4096x128) (r : Fin 4096) (g : Fin 128) :
    extractStridedSlice S4096x128 ![0, 128] v h (ix2 r g) = v (ix2 r (mid g)) :=
  slice2_axis1_apply 128 v h r g (mid g) rfl

/-- The last third. -/
theorem third_hi (v : FVec Ideal S4096x384 .f32) (h : S4096x384.Slices ![0, 256] S4096x128) (r : Fin 4096) (g : Fin 128) :
    extractStridedSlice S4096x128 ![0, 256] v h (ix2 r g) = v (ix2 r (hi g)) :=
  slice2_axis1_apply 256 v h r g (hi g) rfl

/-- The logistic of a vector, at an index. -/
theorem logistic_at {s : Shape} (a : FVec Ideal s .f32) (i : s.Idx) : logistic (F := Ideal) a i = Ideal.logistic (a i) := rfl
/-- The hyperbolic tangent of a vector, at an index. -/
theorem tanh_at {s : Shape} (a : FVec Ideal s .f32) (i : s.Idx) : tanh (F := Ideal) a i = Ideal.tanh (a i) := rfl
/-- A scalar literal at the ideal values. -/
theorem scalar_lit (b : BitVec 32) : Scalar.ofBits (F := Ideal) .f32 b = Ideal.ofBits .f32 b := rfl

/-- The column of lane sums, at row `r`: the sum over the lanes of the hidden state times the output weight. -/
theorem pay2_apply (r : Fin 4096) (u : Fin 1) :
    k0_pay2 (F := Ideal) x0 x1 x2 x3 x4 x5 x6 (ix2 r u)
      = ∑ g : Fin 128, hidden (blockActs x0 x1 x2 r) (fun g => x3 (ix2 (0 : Fin 1) g)) (fun g => x4 (ix2 (0 : Fin 1) g))
          (fun g => x5 (ix2 (0 : Fin 1) g)) g * x6 (ix2 (0 : Fin 1) g) := by
  unfold k0_pay2
  refine (RowReduce.shapeCast_a_a1_apply _ _ r u).trans ?_
  refine (RowReduce.multiReduction_add_row _ _ _ _ _ r).trans ?_
  refine Finset.sum_congr rfl fun g _ => ?_
  simp only [mulf_apply, addf_apply, subf_apply, broadcast_apply, logistic_at, tanh_at, scalar_lit, truncf_apply,
    third_lo, third_mid, third_hi, shapeCast_self, broadcastTo_1b_ab_apply,
    PlainDot.matmul_zero_apply _ dims_plain, one_f32, GruSpec.hidden, blockActs, pre]

/-- The output bias spread down a column, at row `r`. -/
theorem pay3_apply (r : Fin 4096) (u : Fin 1) : k0_pay3 (F := Ideal) x7 (ix2 r u) = x7 (ix2 (0 : Fin 1) (0 : Fin 1)) := by
  unfold k0_pay3
  rw [shapeCast_self]
  have hu : u = 0 := Fin.ext (by omega)
  subst hu
  exact broadcastTo_1b_ab_apply x7 _ r 0

/-- The stored block: the sum of the two columns, re-laid from `4096 × 1` to `32 × 128`; entry `(p, q)` is row
    `128 p + q` of the column. -/
theorem pay1_apply (a b : FVec Ideal S4096x1 .f32) (p : Fin 32) (q : Fin 128) :
    k0_pay1 (F := Ideal) a b (ix2 p q)
      = a (ix2 (⟨128 * p.val + q.val, by have := p.isLt; have := q.isLt; omega⟩ : Fin 4096) (0 : Fin 1))
        + b (ix2 (⟨128 * p.val + q.val, by have := p.isLt; have := q.isLt; omega⟩ : Fin 4096) (0 : Fin 1)) := by
  unfold k0_pay1
  refine (shapeCast_apply _ _ (ix2 p q)
    (ix2 (⟨128 * p.val + q.val, by have := p.isLt; have := q.isLt; omega⟩ : Fin 4096) (0 : Fin 1)) ?_).trans rfl
  rw [Shape.rowMajor_val_two, Shape.rowMajor_val_two]
  show (128 * p.val + q.val) * 1 + 0 = p.val * 128 + q.val
  omega

/-- Entry `(p, q)` of the block the body stores is the read-out of block row `128 p + q`. -/
theorem stored_apply (p : Fin 32) (q : Fin 128) :
    k0_pay1 (F := Ideal) (k0_pay2 x0 x1 x2 x3 x4 x5 x6) (k0_pay3 x7) (ix2 p q)
      = blockOut x0 x1 x2 x3 x4 x5 x6 x7 ⟨128 * p.val + q.val, by have := p.isLt; have := q.isLt; omega⟩ := by
  rw [pay1_apply, pay2_apply, pay3_apply]
  rfl

/-- The read-out of a block row depends only on the entries it reads: the row itself, the weight, the bias rows. -/
theorem blockOut_congr (r : Fin 4096) (xr : Fin 1024 → EReal) (w : Fin 384 → Fin 1024 → EReal) (bi : Fin 384 → EReal)
    (br bz bn lw : Fin 128 → EReal) (lb : EReal)
    (e0 : ∀ h, x0 (ix2 r h) = xr h) (e1 : ∀ j h, x1 (ix2 h j) = w j h) (e2 : ∀ j, x2 (ix2 (0 : Fin 1) j) = bi j)
    (e3 : ∀ g, x3 (ix2 (0 : Fin 1) g) = br g) (e4 : ∀ g, x4 (ix2 (0 : Fin 1) g) = bz g)
    (e5 : ∀ g, x5 (ix2 (0 : Fin 1) g) = bn g) (e6 : ∀ g, x6 (ix2 (0 : Fin 1) g) = lw g)
    (e7 : x7 (ix2 (0 : Fin 1) (0 : Fin 1)) = lb) :
    blockOut x0 x1 x2 x3 x4 x5 x6 x7 r = rowOut (pre xr w bi) br bz bn lw lb := by
  have h0 : (fun h => x0 (ix2 r h)) = xr := funext e0
  have h1 : (fun j h => x1 (ix2 h j)) = w := funext fun j => funext (e1 j)
  have h2 : (fun j => x2 (ix2 (0 : Fin 1) j)) = bi := funext e2
  have h3 : (fun g => x3 (ix2 (0 : Fin 1) g)) = br := funext e3
  have h4 : (fun g => x4 (ix2 (0 : Fin 1) g)) = bz := funext e4
  have h5 : (fun g => x5 (ix2 (0 : Fin 1) g)) = bn := funext e5
  have h6 : (fun g => x6 (ix2 (0 : Fin 1) g)) = lw := funext e6
  show rowOut (pre (fun h => x0 (ix2 r h)) (fun j h => x1 (ix2 h j)) (fun j => x2 (ix2 (0 : Fin 1) j)))
    (fun g => x3 (ix2 (0 : Fin 1) g)) (fun g => x4 (ix2 (0 : Fin 1) g)) (fun g => x5 (ix2 (0 : Fin 1) g))
    (fun g => x6 (ix2 (0 : Fin 1) g)) (x7 (ix2 (0 : Fin 1) (0 : Fin 1))) = _
  rw [h0, h1, h2, h3, h4, h5, h6, e7]

end Cert.KernelSide

end
-- ==== Proof.HostPrefix.lean ====
/-
  The arrays the kernel's region finds, in terms of the arguments.

  Before the region the program re-lays its arguments: the input as 65536 rows of 1024, the input weight transposed
  (and cast to a narrower format, which changes nothing at the ideal values), the input bias as a row, the three
  thirds of the recurrent bias as rows, the output bias as a `1 × 1` array.  Each is read here at an index:

    * row `n` of the re-laid input is row `(n / 2048, n % 2048)` of the argument;
    * the transposed weight at `(h, j)` is the weight at `(j, h)`;
    * the bias rows at `(0, j)` are the bias vectors at `j`, offset by 0, 128, 256 for the recurrent bias's thirds.
-/
import proofs.«170873_j12790412607633_2_alg».proof.Proof.Gen.KernelIdeal.Frame
import proofs.«170873_j12790412607633_2_alg».proof.Proof.GruSpec
import Idealize.ShloMosaic.Lib.StableHlo.Run
import Idealize.ShloMosaic.Lib.ValueLayout
import Idealize.ShloMosaic.Lib.Pipeline.Value

noncomputable section

namespace Cert.KernelSide

open Cert.KernelIdeal Cert.KernelIdeal.Gen Cert.GruSpec Idealize.ShloMosaic Idealize.ShloMosaic.TcCoe
open Idealize.ShloMosaic.ValueIdx Idealize.SL.Sem Idealize.ShloMosaic.StableHlo

variable (m : (ℓ : Loc nD τ sig) → Buf (Elt Ideal) ℓ)

/-- The re-laid input is the argument cast to `65536 × 1024`. -/
theorem entry_rows (c : Dev nD) :
    V m c main_v0 = shapeCast S65536x1024 (m ((c.tc : Thread nD τ).loc main_arg0)) shapeCasts_S32x2048x1024_S65536x1024 := by
  show StableHlo.after hostOps0 (fun b => m (c, b)) (Proc.devRef .tc main_v0) = _
  after_results <;> rfl

/-- Row `n` of the re-laid input. -/
theorem rows_apply (c : Dev nD) (n : Fin 65536) (h : Fin 1024) :
    V m c main_v0 (ix2 n h) = rowOf (m ((c.tc : Thread nD τ).loc main_arg0)) n h := by
  rw [entry_rows]
  refine shapeCast_apply _ _ _ _ ?_
  show (S32x2048x1024.rowMajor (ix3 (⟨n.val / 2048, by have := n.isLt; omega⟩ : Fin 32) (⟨n.val % 2048, by omega⟩ : Fin 2048) h)).val
    = (S65536x1024.rowMajor (ix2 n h)).val
  rw [Shape.rowMajor_val_three, Shape.rowMajor_val_two]
  show (n.val / 2048 * 2048 + n.val % 2048) * 1024 + h.val = n.val * 1024 + h.val
  omega

/-- The weight the region reads is the argument transposed. -/
theorem entry_weight (c : Dev nD) :
    V m c main_v2 = truncf (F := Ideal) (φ := .f32) .bf16
      (transpose S1024x384 [1, 0] (m ((c.tc : Thread nD τ).loc main_arg1)) transposes_S384x1024_S1024x384_1_0) bitsLt_bf16_f32 := by
  show StableHlo.after hostOps0 (fun b => m (c, b)) (Proc.devRef .tc main_v2) = _
  after_results <;> rfl

/-- The transposed weight at `(h, j)`. -/
theorem weight_apply (c : Dev nD) (h : Fin 1024) (j : Fin 384) :
    V m c main_v2 (ix2 h j) = m ((c.tc : Thread nD τ).loc main_arg1) (ix2 j h) := by
  rw [entry_weight]
  exact transpose_ix2_apply _ _ h j

/-- The input bias as a row. -/
theorem entry_bias (c : Dev nD) :
    V m c main_v3 = shapeCast S1x384 (m ((c.tc : Thread nD τ).loc main_arg3)) shapeCasts_S384_S1x384 := by
  show StableHlo.after hostOps0 (fun b => m (c, b)) (Proc.devRef .tc main_v3) = _
  after_results <;> rfl

theorem bias_apply (c : Dev nD) (j : Fin 384) :
    V m c main_v3 (ix2 (0 : Fin 1) j) = m ((c.tc : Thread nD τ).loc main_arg3) (ix1 j) := by
  rw [entry_bias]
  exact shapeCast_a_1a_apply _ _ 0 j

/-- The recurrent bias's first third as a row. -/
theorem entry_rbias_lo (c : Dev nD) :
    V m c main_v5 = shapeCast S1x128 (extractStridedSlice S128 ![0] (m ((c.tc : Thread nD τ).loc main_arg4)) slices_S384_S128_0)
      shapeCasts_S128_S1x128 := by
  show StableHlo.after hostOps0 (fun b => m (c, b)) (Proc.devRef .tc main_v5) = _
  after_results <;> rfl

theorem rbias_lo_apply (c : Dev nD) (g : Fin 128) :
    V m c main_v5 (ix2 (0 : Fin 1) g) = m ((c.tc : Thread nD τ).loc main_arg4) (ix1 (lo g)) := by
  rw [entry_rbias_lo]
  refine (shapeCast_a_1a_apply _ _ 0 g).trans ?_
  exact extractStridedSlice_apply _ _ _ _ _ fun a => by
    match a with
    | ⟨0, _⟩ => exact (Nat.zero_add _).symm

/-- Its second third. -/
theorem entry_rbias_mid (c : Dev nD) :
    V m c main_v7 = shapeCast S1x128 (extractStridedSlice S128 ![128] (m ((c.tc : Thread nD τ).loc main_arg4)) slices_S384_S128_128)
      shapeCasts_S128_S1x128 := by
  show StableHlo.after hostOps0 (fun b => m (c, b)) (Proc.devRef .tc main_v7) = _
  after_results <;> rfl

theorem rbias_mid_apply (c : Dev nD) (g : Fin 128) :
    V m c main_v7 (ix2 (0 : Fin 1) g) = m ((c.tc : Thread nD τ).loc main_arg4) (ix1 (mid g)) := by
  rw [entry_rbias_mid]
  refine (shapeCast_a_1a_apply _ _ 0 g).trans ?_
  exact extractStridedSlice_apply _ _ _ _ _ fun a => by
    match a with
    | ⟨0, _⟩ => rfl

/-- Its last third. -/
theorem entry_rbias_hi (c : Dev nD) :
    V m c main_v9 = shapeCast S1x128 (extractStridedSlice S128 ![256] (m ((c.tc : Thread nD τ).loc main_arg4)) slices_S384_S128_256)
      shapeCasts_S128_S1x128 := by
  show StableHlo.after hostOps0 (fun b => m (c, b)) (Proc.devRef .tc main_v9) = _
  after_results <;> rfl

theorem rbias_hi_apply (c : Dev nD) (g : Fin 128) :
    V m c main_v9 (ix2 (0 : Fin 1) g) = m ((c.tc : Thread nD τ).loc main_arg4) (ix1 (hi g)) := by
  rw [entry_rbias_hi]
  refine (shapeCast_a_1a_apply _ _ 0 g).trans ?_
  exact extractStridedSlice_apply _ _ _ _ _ fun a => by
    match a with
    | ⟨0, _⟩ => rfl

/-- The output bias as a `1 × 1` array. -/
theorem entry_obias (c : Dev nD) :
    V m c main_v10 = shapeCast S1x1 (m ((c.tc : Thread nD τ).loc main_arg6)) shapeCasts_S1_S1x1 := by
  show StableHlo.after hostOps0 (fun b => m (c, b)) (Proc.devRef .tc main_v10) = _
  after_results <;> rfl

theorem obias_apply (c : Dev nD) :
    V m c main_v10 (ix2 (0 : Fin 1) (0 : Fin 1)) = m ((c.tc : Thread nD τ).loc main_arg6) (ix1 (0 : Fin 1)) := by
  rw [entry_obias]
  exact shapeCast_a_1a_apply _ _ 0 0

end Cert.KernelSide

end
-- ==== Proof.Blocks.lean ====
/-
  From the blocks the grid points write back to the region's whole output array.

  Grid point `t` (of 16) reads rows `4096 t … 4096 t + 4095` of the re-laid input and the whole of every other array,
  and writes back rows `32 t … 32 t + 31` of the `512 × 128` output.  Entry `(p, q)` of its block is the read-out of
  block row `128 p + q`, that is of flattened input row `4096 t + 128 p + q = 128 (32 t + p) + q`.  So every point
  writes its block of ONE array — entry `(R, q)` the read-out of flattened row `128 R + q` — and, the sixteen blocks
  covering all 512 rows, the region ends with the output array equal to it.
-/
import proofs.«170873_j12790412607633_2_alg».proof.Proof.Gen.KernelIdeal.Frame
import proofs.«170873_j12790412607633_2_alg».proof.Proof.KernelRow
import proofs.«170873_j12790412607633_2_alg».proof.Proof.HostPrefix

set_option maxRecDepth 16384

noncomputable section

namespace Cert.KernelSide

open Cert.KernelIdeal Cert.KernelIdeal.Gen Cert.GruSpec Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

/-- The output array of the region: entry `(R, q)` is the read-out of flattened input row `128 R + q`. -/
def outArray (c : Dev nD) : S512x128.Idx → EReal := fun i =>
  outRow (m ((c.tc : Thread nD τ).loc main_arg0)) (m ((c.tc : Thread nD τ).loc main_arg1))
    (m ((c.tc : Thread nD τ).loc main_arg3)) (m ((c.tc : Thread nD τ).loc main_arg4))
    (m ((c.tc : Thread nD τ).loc main_arg5)) (m ((c.tc : Thread nD τ).loc main_arg6))
    ⟨128 * (i 0).val + (i 1).val, by have h0 : (i 0).val < 512 := (i 0).isLt; have h1 : (i 1).val < 128 := (i 1).isLt; omega⟩

theorem zero_offsets : (![0, 0] : Fin 2 → Nat) = fun _ => 0 := funext fun a => by fin_cases a <;> rfl

/-- The block index maps, decided over the sixteen points: the input rows and the output rows move with the point,
    every other window stays at block `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- What point `t` writes back is its block of `outArray`. -/
theorem flushed_eq (c : Dev nD) (t : Fin cfg0.N) :
    (dats m 0 c).flushed 8 t = ((cfg0.win 8).blk t).view.read (Elt Ideal) (outArray m c) := by
  show (cfg0.win 8).cut (grid0.coords t) ((dats m 0 c).after 8 t) = _
  rw [after0_8]
  unfold out0_8
  rw [View.canon_unit_zero zero_offsets]
  simp only [View.ld_unit_zero (S := S4096x1024) zero_offsets, View.ld_unit_zero (S := S1024x384) zero_offsets,
    View.ld_unit_zero (S := S1x384) zero_offsets, View.ld_unit_zero (S := S1x128) zero_offsets,
    View.ld_unit_zero (S := S1x1) zero_offsets]
  obtain ⟨a00, a01, a10, a11, a20, a21, a30, a31, a40, a41, a50, a51, a60, a61, a70, a71, a80, a81⟩ := index_facts t
  have ht : t.val < 16 := by
    have h := t.isLt
    have hN : cfg0.N = 16 := N_0
    omega
  funext y
  obtain ⟨p, q, rfl⟩ : ∃ (p : Fin 32) (q : Fin 128), y = ix2 p q := ⟨y 0, y 1, eq_ix2 y⟩
  have hp : p.val < 32 := p.isLt
  have hq : q.val < 128 := q.isLt
  show k0_pay1 (F := Ideal) (k0_pay2 (iblk m c 0 t) (iblk m c 1 t) (iblk m c 2 t) (iblk m c 3 t) (iblk m c 4 t) (iblk m c 5 t) (iblk m c 6 t))
      (k0_pay3 (iblk m c 7 t)) (ix2 p q) = outArray m c (((cfg0.win 8).blk t).view.emb (ix2 p q))
  refine (stored_apply (iblk m c 0 t) (iblk m c 1 t) (iblk m c 2 t) (iblk m c 3 t) (iblk m c 4 t) (iblk m c 5 t)
    (iblk m c 6 t) (iblk m c 7 t) p q).trans ?_
  refine (blockOut_congr (iblk m c 0 t) (iblk m c 1 t) (iblk m c 2 t) (iblk m c 3 t) (iblk m c 4 t) (iblk m c 5 t)
    (iblk m c 6 t) (iblk m c 7 t) ⟨128 * p.val + q.val, by omega⟩
    (rowOf (m ((c.tc : Thread nD τ).loc main_arg0)) ⟨4096 * t.val + (128 * p.val + q.val), by omega⟩)
    (fun j h => m ((c.tc : Thread nD τ).loc main_arg1) (ix2 j h))
    (fun j => m ((c.tc : Thread nD τ).loc main_arg3) (ix1 j))
    (fun g => m ((c.tc : Thread nD τ).loc main_arg4) (ix1 (lo g)))
    (fun g => m ((c.tc : Thread nD τ).loc main_arg4) (ix1 (mid g)))
    (fun g => m ((c.tc : Thread nD τ).loc main_arg4) (ix1 (hi g)))
    (fun g => m ((c.tc : Thread nD τ).loc main_arg5) (ix2 (0 : Fin 1) g))
    (m ((c.tc : Thread nD τ).loc main_arg6) (ix1 (0 : Fin 1))) ?_ ?_ ?_ ?_ ?_ ?_ ?_ ?_).trans ?_
  · intro h
    show V m c main_v0 (((cfg0.win 0).blk t).view.emb (ix2 (⟨128 * p.val + q.val, by omega⟩ : Fin 4096) h)) = _
    have e : ((cfg0.win 0).blk t).view.emb (ix2 (⟨128 * p.val + q.val, by omega⟩ : Fin 4096) h)
        = ix2 (⟨4096 * t.val + (128 * p.val + q.val), by omega⟩ : Fin 65536) h := by
      funext a; apply Fin.ext
      match a with
      | ⟨0, _⟩ => show win0_0.index t (0 : Fin 2) * 4096 + 1 * (128 * p.val + q.val) = 4096 * t.val + (128 * p.val + q.val); omega
      | ⟨1, _⟩ => show win0_0.index t (1 : Fin 2) * 1024 + 1 * h.val = h.val; omega
    rw [e]
    exact rows_apply m c _ h
  · intro j h
    show V m c main_v2 (((cfg0.win 1).blk t).view.emb (ix2 h j)) = _
    have e : ((cfg0.win 1).blk t).view.emb (ix2 h j) = ix2 h j := by
      funext a; apply Fin.ext
      match a with
      | ⟨0, _⟩ => show win0_1.index t (0 : Fin 2) * 1024 + 1 * h.val = h.val; omega
      | ⟨1, _⟩ => show win0_1.index t (1 : Fin 2) * 384 + 1 * j.val = j.val; omega
    rw [e]
    exact weight_apply m c h j
  · intro j
    show V m c main_v3 (((cfg0.win 2).blk t).view.emb (ix2 (0 : Fin 1) j)) = _
    have e : ((cfg0.win 2).blk t).view.emb (ix2 (0 : Fin 1) j) = ix2 (0 : Fin 1) j := by
      funext a; apply Fin.ext
      match a with
      | ⟨0, _⟩ => show win0_2.index t (0 : Fin 2) * 1 + 1 * 0 = 0; omega
      | ⟨1, _⟩ => show win0_2.index t (1 : Fin 2) * 384 + 1 * j.val = j.val; omega
    rw [e]
    exact bias_apply m c j
  · intro g
    show V m c main_v5 (((cfg0.win 3).blk t).view.emb (ix2 (0 : Fin 1) g)) = _
    have e : ((cfg0.win 3).blk t).view.emb (ix2 (0 : Fin 1) g) = ix2 (0 : Fin 1) g := by
      funext a; apply Fin.ext
      match a with
      | ⟨0, _⟩ => show win0_3.index t (0 : Fin 2) * 1 + 1 * 0 = 0; omega
      | ⟨1, _⟩ => show win0_3.index t (1 : Fin 2) * 128 + 1 * g.val = g.val; omega
    rw [e]
    exact rbias_lo_apply m c g
  · intro g
    show V m c main_v7 (((cfg0.win 4).blk t).view.emb (ix2 (0 : Fin 1) g)) = _
    have e : ((cfg0.win 4).blk t).view.emb (ix2 (0 : Fin 1) g) = ix2 (0 : Fin 1) g := by
      funext a; apply Fin.ext
      match a with
      | ⟨0, _⟩ => show win0_4.index t (0 : Fin 2) * 1 + 1 * 0 = 0; omega
      | ⟨1, _⟩ => show win0_4.index t (1 : Fin 2) * 128 + 1 * g.val = g.val; omega
    rw [e]
    exact rbias_mid_apply m c g
  · intro g
    show V m c main_v9 (((cfg0.win 5).blk t).view.emb (ix2 (0 : Fin 1) g)) = _
    have e : ((cfg0.win 5).blk t).view.emb (ix2 (0 : Fin 1) g) = ix2 (0 : Fin 1) g := by
      funext a; apply Fin.ext
      match a with
      | ⟨0, _⟩ => show win0_5.index t (0 : Fin 2) * 1 + 1 * 0 = 0; omega
      | ⟨1, _⟩ => show win0_5.index t (1 : Fin 2) * 128 + 1 * g.val = g.val; omega
    rw [e]
    exact rbias_hi_apply m c g
  · intro g
    show V m c main_arg5 (((cfg0.win 6).blk t).view.emb (ix2 (0 : Fin 1) g)) = _
    have e : ((cfg0.win 6).blk t).view.emb (ix2 (0 : Fin 1) g) = ix2 (0 : Fin 1) g := by
      funext a; apply Fin.ext
      match a with
      | ⟨0, _⟩ => show win0_6.index t (0 : Fin 2) * 1 + 1 * 0 = 0; omega
      | ⟨1, _⟩ => show win0_6.index t (1 : Fin 2) * 128 + 1 * g.val = g.val; omega
    rw [e, V_main_arg5]
  · show V m c main_v10 (((cfg0.win 7).blk t).view.emb (ix2 (0 : Fin 1) (0 : Fin 1))) = _
    have e : ((cfg0.win 7).blk t).view.emb (ix2 (0 : Fin 1) (0 : Fin 1)) = ix2 (0 : Fin 1) (0 : Fin 1) := by
      funext a; apply Fin.ext
      match a with
      | ⟨0, _⟩ => show win0_7.index t (0 : Fin 2) * 1 + 1 * 0 = 0; omega
      | ⟨1, _⟩ => show win0_7.index t (1 : Fin 2) * 1 + 1 * 0 = 0; omega
    rw [e]
    exact obias_apply m c
  · unfold outArray outRow
    have e : (⟨128 * (((cfg0.win 8).blk t).view.emb (ix2 p q) 0).val + (((cfg0.win 8).blk t).view.emb (ix2 p q) 1).val,
          by have h0 := (((cfg0.win 8).blk t).view.emb (ix2 p q) 0).isLt; have h1 := (((cfg0.win 8).blk t).view.emb (ix2 p q) 1).isLt
             have h0' : (((cfg0.win 8).blk t).view.emb (ix2 p q) 0).val < 512 := h0
             have h1' : (((cfg0.win 8).blk t).view.emb (ix2 p q) 1).val < 128 := h1
             omega⟩ : Fin 65536)
        = ⟨4096 * t.val + (128 * p.val + q.val), by omega⟩ := Fin.ext (by
      show 128 * (win0_8.index t (0 : Fin 2) * 32 + 1 * p.val) + (win0_8.index t (1 : Fin 2) * 128 + 1 * q.val)
        = 4096 * t.val + (128 * p.val + q.val)
      omega)
    rw [e]

/-- An index of the output array is in point `t`'s block iff each coordinate is in the block's range on its axis. -/
theorem mem_blk (t : Fin cfg0.N) (i : S512x128.Idx) :
    i ∈ ((cfg0.win 8).blk t).view.set ↔ ∀ a : Fin 2, win0_8.index t a * S32x128.size a ≤ (i a).val
      ∧ (i a).val < win0_8.index t a * S32x128.size a + S32x128.size a := by
  show i ∈ ((View.whole main_v11).slice (win0_8.rect t)).set ↔ _
  rw [View.set_slice_whole, Rect.mem_set_unit]
  exact Iff.rfl

/-- Every entry of the output array is in the block of the point `row / 32`. -/
theorem covered (i : S512x128.Idx) :
    ∃ t : Fin cfg0.N, (cfg0.win 8).flush t = true ∧ i ∈ ((cfg0.win 8).blk t).view.set := by
  have hi0 : (i 0).val < 512 := (i 0).isLt
  have hi1 : (i 1).val < 128 := (i 1).isLt
  have hN : cfg0.N = 16 := N_0
  refine ⟨⟨(i 0).val / 32, by rw [hN]; omega⟩, flush0_8 _, ?_⟩
  obtain ⟨-, -, -, -, -, -, -, -, -, -, -, -, -, -, -, -, a80, a81⟩ := index_facts ⟨(i 0).val / 32, by rw [hN]; omega⟩
  rw [mem_blk]
  intro a
  match a with
  | ⟨0, _⟩ =>
    show win0_8.index _ (0 : Fin 2) * 32 ≤ (i 0).val ∧ (i 0).val < win0_8.index _ (0 : Fin 2) * 32 + 32
    rw [a80]
    show (i 0).val / 32 * 32 ≤ (i 0).val ∧ (i 0).val < (i 0).val / 32 * 32 + 32
    omega
  | ⟨1, _⟩ =>
    show win0_8.index _ (1 : Fin 2) * 128 ≤ (i 1).val ∧ (i 1).val < win0_8.index _ (1 : Fin 2) * 128 + 128
    rw [a81]
    omega

/-- After the sixteen write-backs the region's output array is `outArray`. -/
theorem final (c : Dev nD) : (dats m 0 c).arrAt 8 cfg0.N = outArray m c :=
  (dats m 0 c).arrAt_eq_of_cover 8 (outArray m c) (fun t _ => flushed_eq m c t) covered

end Cert.KernelSide

end
-- ==== Proof.KernelValue.lean ====
/-
  The kernel program's run, with its result identified.

  After the region the program re-lays the `512 × 128` output array as `32 × 2048`.  Entry `(b, l)` of the result is
  the output array at the index with the same row-major position, `((2048 b + l) / 128, (2048 b + l) % 128)`, which
  is the read-out of flattened input row `2048 b + l`: entry `(b, l)` of the specification.  The arguments end as
  they were launched.
-/
import proofs.«170873_j12790412607633_2_alg».proof.Proof.Gen.KernelIdeal.Frame
import proofs.«170873_j12790412607633_2_alg».proof.Proof.Blocks
import Idealize.ShloMosaic.Lib.StableHlo.Run

set_option maxRecDepth 16384

noncomputable section

namespace Cert.KernelSide

open Cert.KernelIdeal Cert.KernelIdeal.Gen Cert.GruSpec Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The output array re-laid as `32 × 2048` is the specification of the arguments. -/
theorem relaid_eq (c : Dev nD) (h : S512x128.ShapeCasts S32x2048) :
    shapeCast S32x2048 (outArray m c) h
      = G (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) := by
  funext i
  obtain ⟨b, l, rfl⟩ : ∃ (b : Fin 32) (l : Fin 2048), i = ix2 b l := ⟨i 0, i 1, eq_ix2 i⟩
  have hb : b.val < 32 := b.isLt
  have hl : l.val < 2048 := l.isLt
  refine (shapeCast_apply (outArray m c) h (ix2 b l)
    (ix2 (⟨(b.val * 2048 + l.val) / 128, by omega⟩ : Fin 512) (⟨(b.val * 2048 + l.val) % 128, by omega⟩ : Fin 128)) ?_).trans ?_
  · rw [Shape.rowMajor_val_two, Shape.rowMajor_val_two]
    show (b.val * 2048 + l.val) / 128 * 128 + (b.val * 2048 + l.val) % 128 = b.val * 2048 + l.val
    omega
  · rw [G_eq_outRow]
    unfold outArray
    exact congrArg _ (Fin.ext (by
      show 128 * ((b.val * 2048 + l.val) / 128) + (b.val * 2048 + l.val) % 128 = b.val * 2048 + l.val
      omega))

/-- What the lines after the region leave in the result buffer. -/
theorem tail_eq (c : Dev nD) :
    Pipeline.afterTail₀ cfgs (dats m) 0 (V0 m) [hostOps1] c main_v12
      = G (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) := by
  unfold Pipeline.afterTail₀
  show StableHlo.after hostOps1 _ (Proc.devRef .tc main_v12) = _
  after_results
  rw [(Pipeline.withArrays_arr spec0 launch0.win.arr_inj c _ _ 8).trans (final m c)]
  exact relaid_eq m c _

/-- Every weakly fair execution of the kernel program terminates with the result at the specification of the arguments
    and the arguments as launched. -/
theorem run : θ_run defs (onTc (τ := τ) (main (F := Ideal))) ⟨m, fun _ => 0, ρ⟩ fun r => ∀ c : Dev nD,
      r.2.mem ((c.tc : Thread nD τ).loc main_v12)
        = G (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c))),
      ((h c).2 main_arg6 (Pipeline.mem_restRefs_of main_arg6 (by decide) (by decide))).trans (W_main_arg6 m (dats m) c)⟩)
    (run_main m ρ)

end Cert.KernelSide

end
-- ==== Proof.lean ====
/-
  A GRU cell against a zero hidden state, followed by a linear read-out: the kernel and the reference compute the same
  function on the extended reals.

  Both programs take an input `x` of `32 × 2048` rows of 1024 features, an input weight of 384 rows, an input and a
  recurrent bias of 384 entries, an output weight of 128 entries and an output bias.  For each row the 384
  pre-activations `a j = ⟨x row, weight row j⟩ + input bias j` split in three thirds of 128 lanes; with the logistic
  function `σ`,

      r = σ (a_lo + b_lo),  z = σ (a_mid + b_mid),  n = tanh (a_hi + r · b_hi),  h = (1 − z) · n,

  (`b` the recurrent bias) and the result at the row is `⟨h, output weight⟩ + output bias` (Proof/GruSpec.lean).

  The reference computes this over the `32 × 2048 × ·` arrays directly, spelling `σ u` as `1 / (1 + e⁻ᵘ)`
  (Proof/RefSide.lean, over the generated reading of its run).  The kernel flattens the rows to 65536, transposes the
  weight, and runs a grid of 16 points of 4096 rows each: one matrix product into a zero accumulator, the gates with
  the logistic as one operation, a lane sum kept as a column and re-laid as a `32 × 128` block of the `512 × 128`
  output, which is re-laid as `32 × 2048` after the region (Proof/KernelRow.lean: a block entry is the read-out of
  its row; Proof/HostPrefix.lean: the arrays the region reads; Proof/Blocks.lean: the sixteen blocks make the output
  array; Proof/KernelValue.lean: the run).  At the ideal values a change of float format is the identity, a sum is
  the same in any order, and the logistic operation is by definition that quotient, so the two sides agree on every
  extended real: the precondition is not used.  The ideal pass rewrote nothing, so the kernel's idealization has
  nothing to preserve.  The three frames are the generated frame runs.
-/
import proofs.«170873_j12790412607633_2_alg».proof.Defs
import proofs.«170873_j12790412607633_2_alg».proof.Proof.Gen.Kernel
import proofs.«170873_j12790412607633_2_alg».proof.Proof.Gen.Kernel.Skeleton
import proofs.«170873_j12790412607633_2_alg».proof.Proof.Gen.Kernel.Launch
import proofs.«170873_j12790412607633_2_alg».proof.Proof.Gen.Kernel.Points
import proofs.«170873_j12790412607633_2_alg».proof.Proof.Gen.Kernel.Frame
import proofs.«170873_j12790412607633_2_alg».proof.Proof.Gen.KernelIdeal
import proofs.«170873_j12790412607633_2_alg».proof.Proof.Gen.KernelIdeal.Skeleton
import proofs.«170873_j12790412607633_2_alg».proof.Proof.Gen.KernelIdeal.Launch
import proofs.«170873_j12790412607633_2_alg».proof.Proof.Gen.KernelIdeal.Points
import proofs.«170873_j12790412607633_2_alg».proof.Proof.Gen.KernelIdeal.Frame
import proofs.«170873_j12790412607633_2_alg».proof.Proof.Gen.ReferenceIdeal
import proofs.«170873_j12790412607633_2_alg».proof.Proof.Gen.ReferenceIdeal.Run
import proofs.«170873_j12790412607633_2_alg».proof.Proof.Gen.ReferenceIdeal.Read
import proofs.«170873_j12790412607633_2_alg».proof.Proof.Gen.Pre_finite_inputs
import proofs.«170873_j12790412607633_2_alg».proof.Proof.RefSide
import proofs.«170873_j12790412607633_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the specification of the arguments in their result: the kernel by its run, the
    reference by its generated run read stage by stage; the arguments agree, so the results are equal. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.2.1, (hagree c).2.2.2.2.1, (hagree c).2.2.2.2.2.1,
    (hagree c).2.2.2.2.2.2]
  exact (Cert.ReferenceIdeal.Read.val_main_v40_eq _ _ _ _ _ _).trans (Cert.RefSide.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
